-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S40 .f32) (main_v33 : IVec S_ 1) : IVec S_ 1 :=
  let main_v34 : FVec F S40 .f32 := Host.absf main_arg7
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x40 .f32 := Host.absf main_arg6
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S1x40 : Shape := ⟨2, ![1, 40]⟩
abbrev S400x10000 : Shape := ⟨2, ![400, 10000]⟩
abbrev S400x128 : Shape := ⟨2, ![400, 128]⟩
abbrev S10000x40 : Shape := ⟨2, ![10000, 40]⟩
abbrev S400x40 : Shape := ⟨2, ![400, 40]⟩

abbrev nBuf : Space → Nat
  | .hbm => 17
  | .vmem => 27
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x128, .f32⟩
  | .hbm, ⟨9, _⟩ => ⟨S1x128, .f32⟩
  | .hbm, ⟨10, _⟩ => ⟨S1x40, .f32⟩
  | .hbm, ⟨11, _⟩ => ⟨S10000x128, .bf16⟩
  | .hbm, ⟨12, _⟩ => ⟨S10000x10000, .bf16⟩
  | .hbm, ⟨13, _⟩ => ⟨S10000x128, .bf16⟩
  | .hbm, ⟨14, _⟩ => ⟨S10000x128, .f32⟩
  | .hbm, ⟨15, _⟩ => ⟨S10000x40, .bf16⟩
  | .hbm, ⟨16, _⟩ => ⟨S10000x40, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S400x10000, .f32⟩
  | .local _ .vmem, ⟨4, _⟩ => ⟨S400x10000, .f32⟩
  | .local _ .vmem, ⟨5, _⟩ => ⟨S10000x128, .bf16⟩
  | .local _ .vmem, ⟨6, _⟩ => ⟨S1x128, .f32⟩
  | .local _ .vmem, ⟨7, _⟩ => ⟨S128x128, .f32⟩
  | .local _ .vmem, ⟨8, _⟩ => ⟨S400x10000, .bf16⟩
  | .local _ .vmem, ⟨9, _⟩ => ⟨S400x10000, .bf16⟩
  | .local _ .vmem, ⟨10, _⟩ => ⟨S400x128, .bf16⟩
  | .local _ .vmem, ⟨11, _⟩ => ⟨S400x128, .bf16⟩
  | .local _ .vmem, ⟨12, _⟩ => ⟨S400x10000, .bf16⟩
  | .local _ .vmem, ⟨13, _⟩ => ⟨S400x10000, .bf16⟩
  | .local _ .vmem, ⟨14, _⟩ => ⟨S10000x128, .bf16⟩
  | .local _ .vmem, ⟨15, _⟩ => ⟨S1x128, .f32⟩
  | .local _ .vmem, ⟨16, _⟩ => ⟨S128x40, .f32⟩
  | .local _ .vmem, ⟨17, _⟩ => ⟨S400x128, .f32⟩
  | .local _ .vmem, ⟨18, _⟩ => ⟨S400x128, .f32⟩
  | .local _ .vmem, ⟨19, _⟩ => ⟨S400x40, .bf16⟩
  | .local _ .vmem, ⟨20, _⟩ => ⟨S400x40, .bf16⟩
  | .local _ .vmem, ⟨21, _⟩ => ⟨S400x10000, .bf16⟩
  | .local _ .vmem, ⟨22, _⟩ => ⟨S400x10000, .bf16⟩
  | .local _ .vmem, ⟨23, _⟩ => ⟨S10000x40, .bf16⟩
  | .local _ .vmem, ⟨24, _⟩ => ⟨S1x40, .f32⟩
  | .local _ .vmem, ⟨25, _⟩ => ⟨S400x40, .f32⟩
  | .local _ .vmem, ⟨26, _⟩ => ⟨S400x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5_0 : Ref sig .tc := ⟨.hbm, 14, rfl⟩
abbrev main_v5_1 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x10000 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S400x40 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x40 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S128_S1x128 : S128.ShapeCasts S1x128
  shapeCasts_S40_S1x40 : S40.ShapeCasts S1x40
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  shapeCasts_S400x10000_S400x10000 : S400x10000.ShapeCasts S400x10000
  inb_S128x40_S128x40_0_0 : ∀ a, (![0, 0] : Fin 2 → Nat) a + S128x40.size a ≤ S128x40.size a
  h_S128x40 : 0 < S128x40.numel
  inb_S400x40_S400x40_0_0 : ∀ a, (![0, 0] : Fin 2 → Nat) a + S400x40.size a ≤ S400x40.size a
  h_S400x40 : 0 < S400x40.numel
  packedbf16_S400x40_S400x40_0_0 : (Rect.unit (s := S400x40) ![0, 0] S400x40.size inb_S400x40_S400x40_0_0).PackedRows (EltTy.packing .bf16)
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S400x40 : S1x40.Broadcasts S400x40
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x40_S400x40_1_0_0_1_n_n_wf : DotDims.WF S400x128 S128x40 S400x40 [1] [0] [0] [1] [] []
  dot_S400x10000_S10000x40_S400x40_1_0_0_1_n_n_wf : DotDims.WF S400x10000 S10000x40 S400x40 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x10000.size a ≤ S10000x10000.size a
  hwx1_4 : ∀ i : grid1.Coords, EltTy.bits .bf16 = 32 ∨ (Rect.block (s := S10000x10000) S400x10000.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .bf16 = 32 ∨ (Rect.block (s := S10000x128) S400x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .f32 = 32 ∨ (Rect.block (s := S10000x128) S400x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x40.size a ≤ S10000x40.size a
  hwx2_5 : ∀ i : grid2.Coords, EltTy.bits .bf16 = 32 ∨ (Rect.block (s := S10000x40) S400x40.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x40.size a ≤ S10000x40.size a
  hwx3_1 : ∀ i : grid3.Coords, EltTy.bits .bf16 = 32 ∨ (Rect.block (s := S10000x40) S10000x40.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x40.size a ≤ S10000x40.size a
  hwx3_3 : ∀ i : grid3.Coords, EltTy.bits .f32 = 32 ∨ (Rect.block (s := S10000x40) S400x40.size (cc3_transform_3 i) (hinb3_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x40_S400x40_1_0_0_1_n_n : DotDims S400x128 S128x40 S400x40 where
  lhsContracting := [1]
  rhsContracting := [0]
  lhsNonContracting := [0]
  rhsNonContracting := [1]
  lhsBatch := []
  rhsBatch := []
  wf := dot_S400x128_S128x40_S400x40_1_0_0_1_n_n_wf
def dot_S400x10000_S10000x40_S400x40_1_0_0_1_n_n : DotDims S400x10000 S10000x40 S400x40 where
  lhsContracting := [1]
  rhsContracting := [0]
  lhsNonContracting := [0]
  rhsNonContracting := [1]
  lhsBatch := []
  rhsBatch := []
  wf := dot_S400x10000_S10000x40_S400x40_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v3) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4_0) S400x10000.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4_1) S400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v4_0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4_1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5_0) S400x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v5_1) S400x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v4_0) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5_1) S10000x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S400x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S_ : Shape := ⟨0, ![]⟩
abbrev S10000x40 : Shape := ⟨2, ![10000, 40]⟩
abbrev S1x40 : Shape := ⟨2, ![1, 40]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x40, .f32⟩
  | .hbm, ⟨25, _⟩ => ⟨S10000x40, .f32⟩
  | .hbm, ⟨26, _⟩ => ⟨S1x40, .f32⟩
  | .hbm, ⟨27, _⟩ => ⟨S10000x40, .f32⟩
  | .hbm, ⟨28, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x40_S10000x40_1_0_0_1_n_n_wf : DotDims.WF S10000x128 S128x40 S10000x40 [1] [0] [0] [1] [] []
  dot_S10000x10000_S10000x40_S10000x40_1_0_0_1_n_n_wf : DotDims.WF S10000x10000 S10000x40 S10000x40 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf

class Facts : Prop extends Facts₀ where

variable [Facts]
-- ==== Proof.KernelRun.lean ====
/-
  The idealized kernel's run with its two result arrays named.

  @main is three reshapes of the bias vectors to one-row matrices followed by four regions. The run's final memory
  holds, at every buffer no region scopes, the contents the last boundary of that chain names (`W5`): each region's
  output arrays at what its write-backs leave, every other buffer as it was when the region was entered. Stated here
  for the two result buffers — the logits `main_v6` and the hidden features `main_v5_0` — beside the unchanged
  arguments.
-/
import proofs.«153892_g88923002896508_cont_sun_m_247_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last
    boundary's contents and the arguments as launched. -/
theorem run_named : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_v5_0) = W5 m ρ c (Proc.devRef .tc main_v5_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v6 (by decide)), h c _ (mem_uc main_v5_0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.RunValue

end
-- ==== Proof.LibHostRead.lean ====
/-
  Small layout operations of a host program, read at an index, generic in the sizes.

  * A vector `[a]` broadcast to a column `[a, 1]` reads the vector at the row (`bcastCol_apply`); a scalar broadcast
    to any shape reads the scalar (`bcastScalar_apply`); a vector `[b]` broadcast to a row `[1, b]` and then to
    `[a, b]` reads the vector at the column (`bcastRow_apply`).
  * Row `r` of a two-row array `[2, E]`, sliced out as `[1, E]` and reshaped to `[E]`, reads the array at `(r, e)`
    (`rowSlice_apply`).
  * The plain product of an `A × K` by a `K × B` matrix over the extended reals, read at `(i, j)`, is the sum over
    the contracted coordinate of the products of the entries: for the host's product (`plainDot_apply`) and for the
    kernel's product accumulated into a zero constant (`plainMatmul_zero_apply`).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.LibHR

open Idealize.ShloMosaic Idealize.ShloMosaic.ValueIdx

/-! ## Broadcasts -/

/-- A vector broadcast to a one-column matrix reads the vector at the row. -/
theorem bcastCol_apply {α : Type} {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A scalar broadcast to any shape reads the scalar. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun b => b.elim0)

/-- A vector broadcast to a one-row matrix and then down the rows reads the vector at the column. -/
theorem bcastRow_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (i : Fin a) (j : Fin b) :
    broadcastInDim ⟨2, ![a, b]⟩ ![0, 1] h2 (broadcastInDim ⟨2, ![1, b]⟩ ![1] h1 x) (ix2 i j) = x (ix1 j) := by
  refine (broadcastInDim_apply _ h2 _ (ix2 i j) (ix2 (0 : Fin 1) j) (fun c => match c with
    | ⟨0, _⟩ => by
      show 0 = if (1 : Nat) = 1 then 0 else i.val
      rw [if_pos rfl]
    | ⟨1, _⟩ => by
      show j.val = if b = 1 then 0 else j.val
      split
      · have := j.isLt; omega
      · rfl)).trans ?_
  exact broadcastInDim_apply _ h1 x (ix2 (0 : Fin 1) j) (ix1 j) (fun c => match c with
    | ⟨0, _⟩ => by
      show j.val = if b = 1 then 0 else j.val
      split
      · have := j.isLt; omega
      · rfl)

/-! ## One row of a two-row array -/

/-- Row `r` of a `[2, E]` array, sliced out and reshaped to `[E]`, reads the array at `(r, e)`. -/
theorem rowSlice_apply {α : Type} {E : Nat} (r : Fin 2) (x : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  refine (shapeCast_apply _ hc (ix1 e) (ix2 (0 : Fin 1) e) (by
    rw [Shape.rowMajor_val_two, Shape.rowMajor_val_one]
    show 0 * E + e.val = e.val
    omega)).trans ?_
  exact extractStridedSlice_apply ![r.val, 0] x hs (ix2 (0 : Fin 1) e) (ix2 r e) (fun c => match c with
    | ⟨0, _⟩ => by show r.val = r.val + 0; omega
    | ⟨1, _⟩ => by show e.val = 0 + e.val; omega)

/-! ## A plain matrix product -/

/-- The dimension numbers of the plain product of an `A × K` by a `K × B` matrix: the left operand's columns
    contracted with the right operand's rows, no batch axes. -/
abbrev plainDotDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- They are the library's plain dimension numbers. -/
theorem plainDotDims_eq (A K B : Nat)
    (wf : DotDims.WF ⟨2, ![A, K]⟩ ⟨2, ![K, B]⟩ ⟨2, ![A, B]⟩ [1] [0] [0] [1] [] []) :
    plainDotDims A K B wf = DotDims.plain A K B := rfl

/-- THE HOST'S PLAIN PRODUCT READ AT `(i, j)`, over the extended reals: the sum over the contracted coordinate of
    the products of the entries. -/
theorem plainDot_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    Host.dotGeneral (F := Ideal) (φ₁ := φ₁) (φ₂ := φ₂) (plainDotDims A K B wf) none l r (ix2 i j)
      = ∑ k : Fin K, l (ix2 i k) * r (ix2 k j) :=
  StackMember.dotGeneral_plain_apply (φ₁ := φ₁) (φ₂ := φ₂) none l r i j

/-- THE KERNEL'S PLAIN PRODUCT INTO A ZERO ACCUMULATOR READ AT `(i, j)`, over the extended reals: the same sum. -/
theorem plainMatmul_zero_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    FloatOps.matmul (F := Ideal) (φ₁ := φ₁) (φ₂ := φ₂) (plainDotDims A K B wf) none l r
        (constant (F := Ideal) ⟨2, ![A, B]⟩ .f32 0x00000000#32) (ix2 i j)
      = ∑ k : Fin K, l (ix2 i k) * r (ix2 k j) := by
  rw [Ideal.matmul_constant_zero_apply, ← Ideal.dotGeneral_apply (plainDotDims A K B wf) none .single l r (ix2 i j)]
  exact plainDot_apply (φ₁ := φ₁) (φ₂ := φ₂) A K B wf l r i j

end Cert.LibHR

end
-- ==== Proof.LibRowBias.lean ====
/-
  A one-row bias added to a matrix product, read at an entry, generic in the sizes.

  * `rowBcast_apply`: a one-row matrix `[1, B]`, cast to its own shape and broadcast down `A` rows, reads at `(r, j)`
    the row's entry `(0, j)`.
  * `layer_apply`: the matrix unit's product of an `A × K` by a `K × B` matrix into a zero accumulator, plus such a
    broadcast one-row bias, reads at `(r, j)` the sum over `k` of `l (r, k) · w (k, j)`, plus `b (0, j)` — over the
    extended reals, whatever the operands' float formats.
-/
import proofs.«153892_g88923002896508_cont_sun_m_247_2_alg».proof.Proof.LibHostRead
import Idealize.ShloMosaic.Lib.Pipeline.Value
import Idealize.ShloMosaic.Lib.ValueLayout

noncomputable section

open scoped BigOperators

namespace Cert.LibRowBias

open Idealize.ShloMosaic Idealize.ShloMosaic.ValueIdx

/-- A one-row matrix, cast to its own shape and broadcast down `A` rows: entry `(r, j)` is the row's entry `j`. -/
theorem rowBcast_apply {α : Type} {A B : Nat} (x : (⟨2, ![1, B]⟩ : Shape).Idx → α)
    (h1 : (⟨2, ![1, B]⟩ : Shape).ShapeCasts ⟨2, ![1, B]⟩) (h2 : (⟨2, ![1, B]⟩ : Shape).Broadcasts ⟨2, ![A, B]⟩)
    (r : Fin A) (j : Fin B) :
    broadcastTo ⟨2, ![A, B]⟩ (shapeCast ⟨2, ![1, B]⟩ x h1) h2 (ix2 r j) = x (ix2 (0 : Fin 1) j) := by
  rw [shapeCast_self]
  refine broadcastTo_apply _ h2 (ix2 r j) (ix2 (0 : Fin 1) j) fun ax => ?_
  match ax with
  | ⟨0, _⟩ => rfl
  | ⟨1, _⟩ =>
    show j.val = if B = 1 then 0 else j.val
    split
    · have := j.isLt; omega
    · rfl

/-- A matrix product into a zero accumulator plus a one-row bias, at `(r, j)`: the sum over the contracted
    coordinate plus the bias's entry `j`. -/
theorem layer_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (w : (⟨2, ![K, B]⟩ : Shape).Idx → EReal) (b : (⟨2, ![1, B]⟩ : Shape).Idx → EReal)
    (h1 : (⟨2, ![1, B]⟩ : Shape).ShapeCasts ⟨2, ![1, B]⟩) (h2 : (⟨2, ![1, B]⟩ : Shape).Broadcasts ⟨2, ![A, B]⟩)
    (r : Fin A) (j : Fin B) :
    FloatOps.matmul (F := Ideal) (φ₁ := φ₁) (φ₂ := φ₂) (Cert.LibHR.plainDotDims A K B wf) none l w
        (constant (F := Ideal) ⟨2, ![A, B]⟩ .f32 0x00000000#32) (ix2 r j)
      + broadcastTo ⟨2, ![A, B]⟩ (shapeCast ⟨2, ![1, B]⟩ b h1) h2 (ix2 r j)
      = (∑ k : Fin K, l (ix2 r k) * w (ix2 k j)) + b (ix2 (0 : Fin 1) j) := by
  rw [Cert.LibHR.plainMatmul_zero_apply, rowBcast_apply]

end Cert.LibRowBias

end
-- ==== Proof.Bodies.lean ====
/-
  What each kernel body computes, read entry by entry over the extended reals.

  Every body loads whole blocks, so its stored value is a pure function of the loaded blocks. Read at the ideal
  values a change of float format is the identity, a matrix product into a zero accumulator is the plain sum of
  products over the contracted coordinate, and a one-row bias broadcast down the rows adds, in column `j`, the bias's
  entry `j`. With `a` a block of rows of the adjacency matrix, `s` the whole support matrix and `b` the one-row bias:

    support body      : (x · w) (r, j)                       = Σ k, x (r, k) · w (k, j)
    layer-1 body      : second store (r, j)                  = Σ k, max ((Σ q, a (r, q) · s (q, k)) + b k) 0 · wm (k, j)
                        first store                          = a   (the adjacency block, copied)
    layer-2 body      : first store (r, j)                   = max ((Σ q, a (r, q) · s (q, j)) + b j) 0
                        second store (r, j)                  = Σ k, (first store) (r, k) · w2 (k, j)
    layer-3 body      : (r, j)                               = (Σ q, a (r, q) · s (q, j)) + b j
-/
import proofs.«153892_g88923002896508_cont_sun_m_247_2_alg».proof.Proof.Gen.KernelIdeal.Skeleton
import proofs.«153892_g88923002896508_cont_sun_m_247_2_alg».proof.Proof.LibRowBias

noncomputable section

open scoped BigOperators

namespace Cert.KernelIdeal.Bodies

open Cert.KernelIdeal Cert.KernelIdeal.Gen Idealize.ShloMosaic Idealize.ShloMosaic.ValueIdx

/-- The support body: the product of the feature block by the weight matrix. -/
theorem support_apply (x : Vec Ideal S10000x128 .f32) (w : Vec Ideal S128x128 .f32) (r : Fin 10000) (j : Fin 128) :
    k0_pay1 x w (ix2 r j) = ∑ k : Fin 128, x (ix2 r k) * w (ix2 k j) := by
  unfold k0_pay1
  exact Cert.LibHR.plainMatmul_zero_apply (φ₁ := .bf16) (φ₂ := .bf16) 10000 128 128 _ x w r j

/-- The layer-1 body's first store is the adjacency block itself. -/
theorem copy_apply (a : Vec Ideal S400x10000 .f32) : k1_pay1 a = a := rfl

/-- The layer-2 body's first store: the rectified adjacency product plus bias. -/
theorem hidden_apply (a : Vec Ideal S400x10000 .bf16) (s : Vec Ideal S10000x128 .bf16) (b : Vec Ideal S1x128 .f32)
    (r : Fin 400) (j : Fin 128) :
    k2_pay1 a s b (ix2 r j)
      = max ((∑ q : Fin 10000, a (ix2 r q) * s (ix2 q j)) + b (ix2 (0 : Fin 1) j)) (Ideal.ofBits .f32 0x00000000#32) := by
  unfold k2_pay1
  rw [shapeCast_self a, shapeCast_self s]
  exact congrArg (max · (Ideal.ofBits .f32 0x00000000#32))
    (Cert.LibRowBias.layer_apply (φ₁ := .bf16) (φ₂ := .bf16) 400 10000 128 _ a s b _ _ r j)

/-- The layer-2 body's second store: the first store times the next weight matrix. -/
theorem hiddenSupport_apply (a : Vec Ideal S400x10000 .bf16) (s : Vec Ideal S10000x128 .bf16) (b : Vec Ideal S1x128 .f32)
    (w2 : Vec Ideal S128x40 .f32) (r : Fin 400) (j : Fin 40) :
    k2_pay2 a s b w2 (ix2 r j)
      = ∑ k : Fin 128, max ((∑ q : Fin 10000, a (ix2 r q) * s (ix2 q k)) + b (ix2 (0 : Fin 1) k))
          (Ideal.ofBits .f32 0x00000000#32) * w2 (ix2 k j) := by
  unfold k2_pay2
  refine (Cert.LibHR.plainMatmul_zero_apply (φ₁ := .bf16) (φ₂ := .bf16) 400 128 40 _ (k2_pay1 a s b) w2 r j).trans ?_
  exact Finset.sum_congr rfl fun k _ => congrArg (· * w2 (ix2 k j)) (hidden_apply a s b r k)

/-- The layer-1 body's second store: the rectified adjacency product plus bias, times the next weight matrix. -/
theorem firstSupport_apply (a : Vec Ideal S400x10000 .f32) (s : Vec Ideal S10000x128 .bf16) (b : Vec Ideal S1x128 .f32)
    (wm : Vec Ideal S128x128 .f32) (r : Fin 400) (j : Fin 128) :
    k1_pay2 a s b wm (ix2 r j)
      = ∑ k : Fin 128, max ((∑ q : Fin 10000, a (ix2 r q) * s (ix2 q k)) + b (ix2 (0 : Fin 1) k))
          (Ideal.ofBits .f32 0x00000000#32) * wm (ix2 k j) := by
  unfold k1_pay2 k1_pay1
  rw [shapeCast_self s]
  refine (Cert.LibHR.plainMatmul_zero_apply (φ₁ := .bf16) (φ₂ := .bf16) 400 128 128 _ _ wm r j).trans ?_
  refine Finset.sum_congr rfl fun k _ => congrArg (· * wm (ix2 k j)) ?_
  exact congrArg (max · (Ideal.ofBits .f32 0x00000000#32))
    (Cert.LibRowBias.layer_apply (φ₁ := .bf16) (φ₂ := .bf16) 400 10000 128 _ a s b _ _ r k)

/-- The layer-3 body: the adjacency product plus bias. -/
theorem logits_apply (a : Vec Ideal S400x10000 .bf16) (s : Vec Ideal S10000x40 .bf16) (b : Vec Ideal S1x40 .f32)
    (r : Fin 400) (j : Fin 40) :
    k3_pay1 a s b (ix2 r j) = (∑ q : Fin 10000, a (ix2 r q) * s (ix2 q j)) + b (ix2 (0 : Fin 1) j) := by
  unfold k3_pay1
  rw [shapeCast_self a, shapeCast_self s]
  exact Cert.LibRowBias.layer_apply (φ₁ := .bf16) (φ₂ := .bf16) 400 10000 40 _ a s b _ _ r j

end Cert.KernelIdeal.Bodies

end
-- ==== Proof.Spec.lean ====
/-
  The mathematics both programs compute: three graph-convolution layers over a dense adjacency matrix, on the
  extended reals.

  With `adj` an n × n matrix, a layer sends a feature matrix `x` (n × K) to `adj · (x · W) + b` — the inner
  product `x · W` (n × B) first, then the adjacency product, then the bias `b` (length B) added to every row. The
  first two layers are followed by a rectifier `max · 0`. Entry by entry:

    (x · W) (i, j)              = Σ k, x (i, k) · W (k, j)
    (adj · s + b) (i, j)        = (Σ q, adj (i, q) · s (q, j)) + b j
    rect y (i, j)               = max (y (i, j)) 0

  Everything is stated over index functions into the extended reals, so that no finiteness is needed: both
  programs apply these very sums in this very order and grouping, and a tiling of the rows changes nothing in a
  row's value.
-/
import Idealize.ShloMosaic.Lib.ValueIdx
import Idealize.ShloMosaic.PureOps.Ideal.Laws

noncomputable section

open scoped BigOperators

namespace Cert.GraphConv

open Idealize.ShloMosaic Idealize.ShloMosaic.ValueIdx

/-- The matrix product of an `A × K` by a `K × B` matrix, entry by entry. -/
def mm {A K B : Nat} (l : (⟨2, ![A, K]⟩ : Shape).Idx → EReal) (r : (⟨2, ![K, B]⟩ : Shape).Idx → EReal) :
    (⟨2, ![A, B]⟩ : Shape).Idx → EReal :=
  fun i => ∑ k : Fin K, l (ix2 (n0 := A) (i 0) k) * r (ix2 (n1 := B) k (i 1))

theorem mm_apply {A K B : Nat} (l : (⟨2, ![A, K]⟩ : Shape).Idx → EReal) (r : (⟨2, ![K, B]⟩ : Shape).Idx → EReal)
    (i : Fin A) (j : Fin B) : mm l r (ix2 i j) = ∑ k : Fin K, l (ix2 i k) * r (ix2 k j) := rfl

/-- A length-`B` vector added to every row of an `A × B` matrix. -/
def addRow {A B : Nat} (y : (⟨2, ![A, B]⟩ : Shape).Idx → EReal) (b : (⟨1, ![B]⟩ : Shape).Idx → EReal) :
    (⟨2, ![A, B]⟩ : Shape).Idx → EReal :=
  fun i => y i + b (ix1 (n := B) (i 1))

theorem addRow_apply {A B : Nat} (y : (⟨2, ![A, B]⟩ : Shape).Idx → EReal) (b : (⟨1, ![B]⟩ : Shape).Idx → EReal)
    (i : Fin A) (j : Fin B) : addRow y b (ix2 i j) = y (ix2 i j) + b (ix1 j) := rfl

/-- The rectifier, entry by entry; its zero is the float word `0x00000000` read as an extended real. -/
def rect {s : Shape} (y : s.Idx → EReal) : s.Idx → EReal :=
  fun i => max (y i) (Ideal.ofBits .f32 0x00000000#32)

theorem rect_apply {s : Shape} (y : s.Idx → EReal) (i : s.Idx) :
    rect y i = max (y i) (Ideal.ofBits .f32 0x00000000#32) := rfl

/-- One layer before its rectifier: `adj · s + b`. -/
def conv {N B : Nat} (adj : (⟨2, ![N, N]⟩ : Shape).Idx → EReal) (s : (⟨2, ![N, B]⟩ : Shape).Idx → EReal)
    (b : (⟨1, ![B]⟩ : Shape).Idx → EReal) : (⟨2, ![N, B]⟩ : Shape).Idx → EReal :=
  addRow (mm adj s) b

theorem conv_apply {N B : Nat} (adj : (⟨2, ![N, N]⟩ : Shape).Idx → EReal) (s : (⟨2, ![N, B]⟩ : Shape).Idx → EReal)
    (b : (⟨1, ![B]⟩ : Shape).Idx → EReal) (i : Fin N) (j : Fin B) :
    conv adj s b (ix2 i j) = (∑ q : Fin N, adj (ix2 i q) * s (ix2 q j)) + b (ix1 j) := rfl

/-- The second layer's output (the hidden features the programs return). -/
def hidden {N F H : Nat} (x : (⟨2, ![N, F]⟩ : Shape).Idx → EReal) (adj : (⟨2, ![N, N]⟩ : Shape).Idx → EReal)
    (w1 : (⟨2, ![F, H]⟩ : Shape).Idx → EReal) (b1 : (⟨1, ![H]⟩ : Shape).Idx → EReal)
    (wm : (⟨2, ![H, H]⟩ : Shape).Idx → EReal) (bm : (⟨1, ![H]⟩ : Shape).Idx → EReal) :
    (⟨2, ![N, H]⟩ : Shape).Idx → EReal :=
  rect (conv adj (mm (rect (conv adj (mm x w1) b1)) wm) bm)

/-- The third layer's output (the logits the programs return). -/
def logits {N F H C : Nat} (x : (⟨2, ![N, F]⟩ : Shape).Idx → EReal) (adj : (⟨2, ![N, N]⟩ : Shape).Idx → EReal)
    (w1 : (⟨2, ![F, H]⟩ : Shape).Idx → EReal) (b1 : (⟨1, ![H]⟩ : Shape).Idx → EReal)
    (wm : (⟨2, ![H, H]⟩ : Shape).Idx → EReal) (bm : (⟨1, ![H]⟩ : Shape).Idx → EReal)
    (w2 : (⟨2, ![H, C]⟩ : Shape).Idx → EReal) (b2 : (⟨1, ![C]⟩ : Shape).Idx → EReal) :
    (⟨2, ![N, C]⟩ : Shape).Idx → EReal :=
  conv adj (mm (hidden x adj w1 b1 wm bm) w2) b2

end Cert.GraphConv

end
-- ==== Proof.BlocksCommon.lean ====
/-
  Shared by the four regions: the zero offsets of a whole-block access, and a one-row matrix read as a vector.
-/
import Idealize.ShloMosaic.Lib.ValueIdx
import Idealize.ShloMosaic.PureOps.Ideal.Laws

noncomputable section

namespace Cert.KernelIdeal.Blocks

open Idealize.ShloMosaic Idealize.ShloMosaic.ValueIdx

/-- The offsets of an access to a whole block are all zero. -/
theorem hz : (![0, 0] : Fin 2 → Nat) = fun _ => 0 := funext fun a => by fin_cases a <;> rfl

/-- A one-row matrix read as a vector: entry `j` is the row's entry `(0, j)`. -/
def rowOf {B : Nat} (x : (⟨2, ![1, B]⟩ : Shape).Idx → EReal) : (⟨1, ![B]⟩ : Shape).Idx → EReal :=
  fun j => x (ix2 (0 : Fin 1) (j 0))

theorem rowOf_apply {B : Nat} (x : (⟨2, ![1, B]⟩ : Shape).Idx → EReal) (j : Fin B) :
    rowOf x (ix1 j) = x (ix2 (0 : Fin 1) j) := rfl

end Cert.KernelIdeal.Blocks

end
-- ==== Proof.Region0.lean ====
/-
  Region 0 (the first support matrix) at any entry contents `V`.

  No grid: one point, whose blocks are the whole arrays. The body stores `x · w`, the product of the whole feature
  matrix by the whole first weight matrix, and the one block written back is the whole array, which therefore ends
  at `mm x w`.
-/
import proofs.«153892_g88923002896508_cont_sun_m_247_2_alg».proof.Proof.Gen.KernelIdeal.Frame
import proofs.«153892_g88923002896508_cont_sun_m_247_2_alg».proof.Proof.Bodies
import proofs.«153892_g88923002896508_cont_sun_m_247_2_alg».proof.Proof.Spec
import proofs.«153892_g88923002896508_cont_sun_m_247_2_alg».proof.Proof.BlocksCommon
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Window 0's block is the whole feature matrix. -/
theorem iblk0_0 (c : Dev nD) (t : Fin cfg0.N) (r : Fin 10000) (k : Fin 128) :
    iblk0 V c 0 t (ix2 r k) = V c main_arg0 (ix2 r k) := by
  show V c main_arg0 (((cfg0.win 0).blk t).view.emb (ix2 r k)) = _
  congr 1
  funext a; apply Fin.ext
  match a with
  | ⟨0, _⟩ => show 0 * 10000 + 1 * r.val = r.val; omega
  | ⟨1, _⟩ => show 0 * 128 + 1 * k.val = k.val; omega

/-- Window 1's block is the whole weight matrix. -/
theorem iblk0_1 (c : Dev nD) (t : Fin cfg0.N) (k : Fin 128) (j : Fin 128) :
    iblk0 V c 1 t (ix2 k j) = V c main_arg2 (ix2 k j) := by
  show V c main_arg2 (((cfg0.win 1).blk t).view.emb (ix2 k j)) = _
  congr 1
  funext a; apply Fin.ext
  match a with
  | ⟨0, _⟩ => show 0 * 128 + 1 * k.val = k.val; omega
  | ⟨1, _⟩ => show 0 * 128 + 1 * j.val = j.val; omega

/-- The output block is the whole array. -/
theorem emb0_2 (t : Fin cfg0.N) (r : Fin 10000) (j : Fin 128) :
    ((cfg0.win 2).blk t).view.emb (ix2 r j) = ix2 r j := by
  funext a; apply Fin.ext
  match a with
  | ⟨0, _⟩ => show 0 * 10000 + 1 * r.val = r.val; omega
  | ⟨1, _⟩ => show 0 * 128 + 1 * j.val = j.val; omega

/-- What the one point writes back is `mm x w`, read through the whole-array block. -/
theorem flushed0_2 (c : Dev nD) (t : Fin cfg0.N) :
    (dat0 V c).flushed 2 t = ((cfg0.win 2).blk t).view.read (Elt Ideal)
      (GraphConv.mm (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  funext y
  obtain ⟨r, j, rfl⟩ : ∃ (r : Fin 10000) (j : Fin 128), y = ix2 r j := ⟨y 0, y 1, eq_ix2 y⟩
  refine (Bodies.support_apply (iblk0 V c 0 t) (iblk0 V c 1 t) r j).trans ?_
  show _ = GraphConv.mm (V c main_arg0) (V c main_arg2) (((cfg0.win 2).blk t).view.emb (ix2 r j))
  rw [emb0_2, GraphConv.mm_apply]
  simp only [iblk0_0, iblk0_1]

/-- Every index of the array is in the one point's block. -/
theorem tiles0_2 (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  refine ⟨t0_0, flush0_2 t0_0, ?_⟩
  show i ∈ ((View.whole main_v3).slice (win0_2.rect t0_0)).set
  rw [View.set_slice_whole, Rect.mem_set_unit]
  intro a
  match a with
  | ⟨0, _⟩ => show 0 * 10000 ≤ (i 0).val ∧ (i 0).val < 0 * 10000 + 10000; omega
  | ⟨1, _⟩ => show 0 * 128 ≤ (i 1).val ∧ (i 1).val < 0 * 128 + 128; omega

/-- The first support matrix after region 0. -/
theorem final0_2 (c : Dev nD) : (dat0 V c).arrAt 2 cfg0.N = GraphConv.mm (V c main_arg0) (V c main_arg2) :=
  (dat0 V c).arrAt_eq_of_cover 2 _ (fun t _ => flushed0_2 V c t) tiles0_2

end Cert.KernelIdeal.Blocks

end
-- ==== Proof.Region1.lean ====
/-
  Region 1 (the first layer) at any entry contents `V`: the two arrays it leaves.

  The grid has 25 points; point `t` stages rows `400 t … 400 t + 399` of the adjacency matrix, the whole first support
  matrix, the whole one-row bias and the whole next weight matrix. It writes back the same rows of the adjacency
  copy — the staged block itself, a change of float format being the identity on the extended reals — and the same
  rows of the second support matrix: row `r` of that block is
  `Σ k, max ((Σ q, adj (400 t + r, q) · s (q, k)) + b k) 0 · wm (k, j)`, row `400 t + r` of `mm (rect (conv adj s b)) wm`.
  The 25 blocks tile the 10000 rows, so the arrays end at `adj` and at `mm (rect (conv adj s b)) wm`.
-/
import proofs.«153892_g88923002896508_cont_sun_m_247_2_alg».proof.Proof.Gen.KernelIdeal.Frame
import proofs.«153892_g88923002896508_cont_sun_m_247_2_alg».proof.Proof.Bodies
import proofs.«153892_g88923002896508_cont_sun_m_247_2_alg».proof.Proof.Spec
import proofs.«153892_g88923002896508_cont_sun_m_247_2_alg».proof.Proof.BlocksCommon
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices at every grid point: the row-blocked windows move with the point, the others stay. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0
    ∧ win1_5.index t (0 : Fin 2) = t.val
    ∧ win1_5.index t (1 : Fin 2) = 0 :=
  (by decide +kernel : ∀ t : Fin grid1.N, _)

theorem lt25_1 (t : Fin cfg1.N) : t.val < 25 := lt_of_lt_of_eq t.isLt N_1

/-- Window 0's block at point `t` is rows `400 t … 400 t + 399` of the adjacency matrix. -/
theorem iblk1_0 (c : Dev nD) (t : Fin cfg1.N) (r : Fin 400) (q : Fin 10000) :
    iblk1 V c 0 t (ix2 r q) = V c main_arg1 (ix2 (⟨t.val * 400 + r.val, by have := lt25_1 t; have := r.isLt; omega⟩ : Fin 10000) q) := by
  obtain ⟨e00, e01, e10, e11, e20, e21, e30, e31, e40, e41, e50, e51⟩ := idx1 t
  show V c main_arg1 (((cfg1.win 0).blk t).view.emb (ix2 r q)) = _
  congr 1
  funext a; apply Fin.ext
  match a with
  | ⟨0, _⟩ => show win1_0.index t (0 : Fin 2) * 400 + 1 * r.val = t.val * 400 + r.val; omega
  | ⟨1, _⟩ => show win1_0.index t (1 : Fin 2) * 10000 + 1 * q.val = q.val; omega

/-- Window 1's block is the whole support matrix. -/
theorem iblk1_1 (c : Dev nD) (t : Fin cfg1.N) (r : Fin 10000) (q : Fin 128) :
    iblk1 V c 1 t (ix2 r q) = V c main_v3 (ix2 r q) := by
  obtain ⟨e00, e01, e10, e11, e20, e21, e30, e31, e40, e41, e50, e51⟩ := idx1 t
  show V c main_v3 (((cfg1.win 1).blk t).view.emb (ix2 r q)) = _
  congr 1
  funext a; apply Fin.ext
  match a with
  | ⟨0, _⟩ => show win1_1.index t (0 : Fin 2) * 10000 + 1 * r.val = r.val; omega
  | ⟨1, _⟩ => show win1_1.index t (1 : Fin 2) * 128 + 1 * q.val = q.val; omega

/-- Window 2's block is the whole one-row bias. -/
theorem iblk1_2 (c : Dev nD) (t : Fin cfg1.N) (r : Fin 1) (q : Fin 128) :
    iblk1 V c 2 t (ix2 r q) = V c main_v0 (ix2 r q) := by
  obtain ⟨e00, e01, e10, e11, e20, e21, e30, e31, e40, e41, e50, e51⟩ := idx1 t
  show V c main_v0 (((cfg1.win 2).blk t).view.emb (ix2 r q)) = _
  congr 1
  funext a; apply Fin.ext
  match a with
  | ⟨0, _⟩ => show win1_2.index t (0 : Fin 2) * 1 + 1 * r.val = r.val; omega
  | ⟨1, _⟩ => show win1_2.index t (1 : Fin 2) * 128 + 1 * q.val = q.val; omega

/-- Window 3's block is the whole next weight matrix. -/
theorem iblk1_3 (c : Dev nD) (t : Fin cfg1.N) (r : Fin 128) (q : Fin 128) :
    iblk1 V c 3 t (ix2 r q) = V c main_arg4 (ix2 r q) := by
  obtain ⟨e00, e01, e10, e11, e20, e21, e30, e31, e40, e41, e50, e51⟩ := idx1 t
  show V c main_arg4 (((cfg1.win 3).blk t).view.emb (ix2 r q)) = _
  congr 1
  funext a; apply Fin.ext
  match a with
  | ⟨0, _⟩ => show win1_3.index t (0 : Fin 2) * 128 + 1 * r.val = r.val; omega
  | ⟨1, _⟩ => show win1_3.index t (1 : Fin 2) * 128 + 1 * q.val = q.val; omega

/-- Output window 4's block at point `t` sits at rows `400 t … 400 t + 399`. -/
theorem emb1_4 (t : Fin cfg1.N) (r : Fin 400) (j : Fin 10000) :
    ((cfg1.win 4).blk t).view.emb (ix2 r j) = ix2 (⟨t.val * 400 + r.val, by have := lt25_1 t; have := r.isLt; omega⟩ : Fin 10000) j := by
  obtain ⟨e00, e01, e10, e11, e20, e21, e30, e31, e40, e41, e50, e51⟩ := idx1 t
  funext a; apply Fin.ext
  match a with
  | ⟨0, _⟩ => show win1_4.index t (0 : Fin 2) * 400 + 1 * r.val = t.val * 400 + r.val; omega
  | ⟨1, _⟩ => show win1_4.index t (1 : Fin 2) * 10000 + 1 * j.val = j.val; omega

/-- Output window 5's block at point `t` sits at rows `400 t … 400 t + 399`. -/
theorem emb1_5 (t : Fin cfg1.N) (r : Fin 400) (j : Fin 128) :
    ((cfg1.win 5).blk t).view.emb (ix2 r j) = ix2 (⟨t.val * 400 + r.val, by have := lt25_1 t; have := r.isLt; omega⟩ : Fin 10000) j := by
  obtain ⟨e00, e01, e10, e11, e20, e21, e30, e31, e40, e41, e50, e51⟩ := idx1 t
  funext a; apply Fin.ext
  match a with
  | ⟨0, _⟩ => show win1_5.index t (0 : Fin 2) * 400 + 1 * r.val = t.val * 400 + r.val; omega
  | ⟨1, _⟩ => show win1_5.index t (1 : Fin 2) * 128 + 1 * j.val = j.val; omega

/-- What point `t` writes back to the adjacency copy is its block of the adjacency matrix. -/
theorem flushed1_4 (c : Dev nD) (t : Fin cfg1.N) :
    (dat1 V c).flushed 4 t = ((cfg1.win 4).blk t).view.read (Elt Ideal) (V c main_arg1) := by
  show (cfg1.win 4).cut (grid1.coords t) ((dat1 V c).after 4 t) = _
  rw [after1_4]
  unfold out1_4
  rw [View.canon_unit_zero hz]
  simp only [View.ld_unit_zero (S := S400x10000) hz]
  rw [Bodies.copy_apply]
  funext y
  obtain ⟨r, q, rfl⟩ : ∃ (r : Fin 400) (q : Fin 10000), y = ix2 r q := ⟨y 0, y 1, eq_ix2 y⟩
  refine (iblk1_0 V c t r q).trans ?_
  show _ = V c main_arg1 (((cfg1.win 4).blk t).view.emb (ix2 r q))
  rw [emb1_4]

/-- What point `t` writes back to the second support matrix is its block of `mm (rect (conv adj s b)) wm`. -/
theorem flushed1_5 (c : Dev nD) (t : Fin cfg1.N) :
    (dat1 V c).flushed 5 t = ((cfg1.win 5).blk t).view.read (Elt Ideal)
      (GraphConv.mm (GraphConv.rect (GraphConv.conv (V c main_arg1) (V c main_v3) (rowOf (V c main_v0)))) (V c main_arg4)) := by
  show (cfg1.win 5).cut (grid1.coords t) ((dat1 V c).after 5 t) = _
  rw [after1_5]
  unfold out1_5
  rw [View.canon_unit_zero hz]
  simp only [View.ld_unit_zero (S := S400x10000) hz, View.ld_unit_zero (S := S10000x128) hz, View.ld_unit_zero (S := S1x128) hz, View.ld_unit_zero (S := S128x128) hz]
  funext y
  obtain ⟨r, j, rfl⟩ : ∃ (r : Fin 400) (j : Fin 128), y = ix2 r j := ⟨y 0, y 1, eq_ix2 y⟩
  refine (Bodies.firstSupport_apply (iblk1 V c 0 t) (iblk1 V c 1 t) (iblk1 V c 2 t) (iblk1 V c 3 t) r j).trans ?_
  show _ = GraphConv.mm (GraphConv.rect (GraphConv.conv (V c main_arg1) (V c main_v3) (rowOf (V c main_v0)))) (V c main_arg4)
    (((cfg1.win 5).blk t).view.emb (ix2 r j))
  rw [emb1_5, GraphConv.mm_apply]
  simp only [iblk1_0, iblk1_1, iblk1_2, iblk1_3]
  rfl

/-- An index of the array is in point `t`'s block iff each coordinate is in the block's range on its axis. -/
theorem mem_blk1_4 (t : Fin cfg1.N) (i : S10000x10000.Idx) :
    i ∈ ((cfg1.win 4).blk t).view.set ↔ ∀ a : Fin 2, win1_4.index t a * S400x10000.size a ≤ (i a).val ∧ (i a).val < win1_4.index t a * S400x10000.size a + S400x10000.size a := by
  show i ∈ ((View.whole main_v4_0).slice (win1_4.rect t)).set ↔ _
  rw [View.set_slice_whole, Rect.mem_set_unit]
  exact Iff.rfl

/-- The blocks tile the rows: row `i` lies in the block of the point `i / 400`. -/
theorem tiles1_4 (i : S10000x10000.Idx) :
    ∃ t : Fin cfg1.N, (cfg1.win 4).flush t = true ∧ i ∈ ((cfg1.win 4).blk t).view.set := by
  have hi0 : (i 0).val < 10000 := (i 0).isLt
  have hi1 : (i 1).val < 10000 := (i 1).isLt
  let t : Fin cfg1.N := ⟨(i 0).val / 400, by rw [show cfg1.N = 25 from N_1]; omega⟩
  obtain ⟨e00, e01, e10, e11, e20, e21, e30, e31, e40, e41, e50, e51⟩ := idx1 t
  have ht : t.val = (i 0).val / 400 := rfl
  refine ⟨t, flush1_4 t, ?_⟩
  rw [mem_blk1_4]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 10000 ≤ (i 1).val ∧ (i 1).val < win1_4.index t (1 : Fin 2) * 10000 + 10000; omega

/-- An index of the array is in point `t`'s block iff each coordinate is in the block's range on its axis. -/
theorem mem_blk1_5 (t : Fin cfg1.N) (i : S10000x128.Idx) :
    i ∈ ((cfg1.win 5).blk t).view.set ↔ ∀ a : Fin 2, win1_5.index t a * S400x128.size a ≤ (i a).val ∧ (i a).val < win1_5.index t a * S400x128.size a + S400x128.size a := by
  show i ∈ ((View.whole main_v4_1).slice (win1_5.rect t)).set ↔ _
  rw [View.set_slice_whole, Rect.mem_set_unit]
  exact Iff.rfl

/-- The blocks tile the rows: row `i` lies in the block of the point `i / 400`. -/
theorem tiles1_5 (i : S10000x128.Idx) :
    ∃ t : Fin cfg1.N, (cfg1.win 5).flush t = true ∧ i ∈ ((cfg1.win 5).blk t).view.set := by
  have hi0 : (i 0).val < 10000 := (i 0).isLt
  have hi1 : (i 1).val < 128 := (i 1).isLt
  let t : Fin cfg1.N := ⟨(i 0).val / 400, by rw [show cfg1.N = 25 from N_1]; omega⟩
  obtain ⟨e00, e01, e10, e11, e20, e21, e30, e31, e40, e41, e50, e51⟩ := idx1 t
  have ht : t.val = (i 0).val / 400 := rfl
  refine ⟨t, flush1_5 t, ?_⟩
  rw [mem_blk1_5]
  intro a
  match a with
  | ⟨0, _⟩ => show win1_5.index t (0 : Fin 2) * 400 ≤ (i 0).val ∧ (i 0).val < win1_5.index t (0 : Fin 2) * 400 + 400; omega
  | ⟨1, _⟩ => show win1_5.index t (1 : Fin 2) * 128 ≤ (i 1).val ∧ (i 1).val < win1_5.index t (1 : Fin 2) * 128 + 128; omega

/-- The adjacency copy after region 1 is the adjacency matrix. -/
theorem final1_4 (c : Dev nD) : (dat1 V c).arrAt 4 cfg1.N = V c main_arg1 :=
  (dat1 V c).arrAt_eq_of_cover 4 _ (fun t _ => flushed1_4 V c t) tiles1_4

/-- The second support matrix after region 1. -/
theorem final1_5 (c : Dev nD) :
    (dat1 V c).arrAt 5 cfg1.N
      = GraphConv.mm (GraphConv.rect (GraphConv.conv (V c main_arg1) (V c main_v3) (rowOf (V c main_v0)))) (V c main_arg4) :=
  (dat1 V c).arrAt_eq_of_cover 5 _ (fun t _ => flushed1_5 V c t) tiles1_5

end Cert.KernelIdeal.Blocks

end
-- ==== Proof.Region2.lean ====
/-
  Region 2 (the second layer) at any entry contents `V`: the two arrays it leaves.

  The grid has 25 points; point `t` stages rows `400 t … 400 t + 399` of the adjacency copy, the whole second support
  matrix, the whole one-row bias and the whole last weight matrix. It writes back the same rows of the hidden
  features — row `r` of that block is `max ((Σ q, adj (400 t + r, q) · s (q, j)) + b j) 0`, row `400 t + r` of
  `rect (conv adj s b)` — and the same rows of the third support matrix, the hidden block times the weight matrix:
  row `400 t + r` of `mm (rect (conv adj s b)) w2`. The 25 blocks tile the 10000 rows, so the arrays end at those two
  functions.
-/
import proofs.«153892_g88923002896508_cont_sun_m_247_2_alg».proof.Proof.Gen.KernelIdeal.Frame
import proofs.«153892_g88923002896508_cont_sun_m_247_2_alg».proof.Proof.Bodies
import proofs.«153892_g88923002896508_cont_sun_m_247_2_alg».proof.Proof.Spec
import proofs.«153892_g88923002896508_cont_sun_m_247_2_alg».proof.Proof.BlocksCommon
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices at every grid point: the row-blocked windows move with the point, the others stay. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0
    ∧ win2_5.index t (0 : Fin 2) = t.val
    ∧ win2_5.index t (1 : Fin 2) = 0 :=
  (by decide +kernel : ∀ t : Fin grid2.N, _)

theorem lt25_2 (t : Fin cfg2.N) : t.val < 25 := lt_of_lt_of_eq t.isLt N_2

/-- Window 0's block at point `t` is rows `400 t … 400 t + 399` of the adjacency copy. -/
theorem iblk2_0 (c : Dev nD) (t : Fin cfg2.N) (r : Fin 400) (q : Fin 10000) :
    iblk2 V c 0 t (ix2 r q) = V c main_v4_0 (ix2 (⟨t.val * 400 + r.val, by have := lt25_2 t; have := r.isLt; omega⟩ : Fin 10000) q) := by
  obtain ⟨e00, e01, e10, e11, e20, e21, e30, e31, e40, e41, e50, e51⟩ := idx2 t
  show V c main_v4_0 (((cfg2.win 0).blk t).view.emb (ix2 r q)) = _
  congr 1
  funext a; apply Fin.ext
  match a with
  | ⟨0, _⟩ => show win2_0.index t (0 : Fin 2) * 400 + 1 * r.val = t.val * 400 + r.val; omega
  | ⟨1, _⟩ => show win2_0.index t (1 : Fin 2) * 10000 + 1 * q.val = q.val; omega

/-- Window 1's block is the whole support matrix. -/
theorem iblk2_1 (c : Dev nD) (t : Fin cfg2.N) (r : Fin 10000) (q : Fin 128) :
    iblk2 V c 1 t (ix2 r q) = V c main_v4_1 (ix2 r q) := by
  obtain ⟨e00, e01, e10, e11, e20, e21, e30, e31, e40, e41, e50, e51⟩ := idx2 t
  show V c main_v4_1 (((cfg2.win 1).blk t).view.emb (ix2 r q)) = _
  congr 1
  funext a; apply Fin.ext
  match a with
  | ⟨0, _⟩ => show win2_1.index t (0 : Fin 2) * 10000 + 1 * r.val = r.val; omega
  | ⟨1, _⟩ => show win2_1.index t (1 : Fin 2) * 128 + 1 * q.val = q.val; omega

/-- Window 2's block is the whole one-row bias. -/
theorem iblk2_2 (c : Dev nD) (t : Fin cfg2.N) (r : Fin 1) (q : Fin 128) :
    iblk2 V c 2 t (ix2 r q) = V c main_v1 (ix2 r q) := by
  obtain ⟨e00, e01, e10, e11, e20, e21, e30, e31, e40, e41, e50, e51⟩ := idx2 t
  show V c main_v1 (((cfg2.win 2).blk t).view.emb (ix2 r q)) = _
  congr 1
  funext a; apply Fin.ext
  match a with
  | ⟨0, _⟩ => show win2_2.index t (0 : Fin 2) * 1 + 1 * r.val = r.val; omega
  | ⟨1, _⟩ => show win2_2.index t (1 : Fin 2) * 128 + 1 * q.val = q.val; omega

/-- Window 3's block is the whole last weight matrix. -/
theorem iblk2_3 (c : Dev nD) (t : Fin cfg2.N) (r : Fin 128) (q : Fin 40) :
    iblk2 V c 3 t (ix2 r q) = V c main_arg6 (ix2 r q) := by
  obtain ⟨e00, e01, e10, e11, e20, e21, e30, e31, e40, e41, e50, e51⟩ := idx2 t
  show V c main_arg6 (((cfg2.win 3).blk t).view.emb (ix2 r q)) = _
  congr 1
  funext a; apply Fin.ext
  match a with
  | ⟨0, _⟩ => show win2_3.index t (0 : Fin 2) * 128 + 1 * r.val = r.val; omega
  | ⟨1, _⟩ => show win2_3.index t (1 : Fin 2) * 40 + 1 * q.val = q.val; omega

/-- Output window 4's block at point `t` sits at rows `400 t … 400 t + 399`. -/
theorem emb2_4 (t : Fin cfg2.N) (r : Fin 400) (j : Fin 128) :
    ((cfg2.win 4).blk t).view.emb (ix2 r j) = ix2 (⟨t.val * 400 + r.val, by have := lt25_2 t; have := r.isLt; omega⟩ : Fin 10000) j := by
  obtain ⟨e00, e01, e10, e11, e20, e21, e30, e31, e40, e41, e50, e51⟩ := idx2 t
  funext a; apply Fin.ext
  match a with
  | ⟨0, _⟩ => show win2_4.index t (0 : Fin 2) * 400 + 1 * r.val = t.val * 400 + r.val; omega
  | ⟨1, _⟩ => show win2_4.index t (1 : Fin 2) * 128 + 1 * j.val = j.val; omega

/-- Output window 5's block at point `t` sits at rows `400 t … 400 t + 399`. -/
theorem emb2_5 (t : Fin cfg2.N) (r : Fin 400) (j : Fin 40) :
    ((cfg2.win 5).blk t).view.emb (ix2 r j) = ix2 (⟨t.val * 400 + r.val, by have := lt25_2 t; have := r.isLt; omega⟩ : Fin 10000) j := by
  obtain ⟨e00, e01, e10, e11, e20, e21, e30, e31, e40, e41, e50, e51⟩ := idx2 t
  funext a; apply Fin.ext
  match a with
  | ⟨0, _⟩ => show win2_5.index t (0 : Fin 2) * 400 + 1 * r.val = t.val * 400 + r.val; omega
  | ⟨1, _⟩ => show win2_5.index t (1 : Fin 2) * 40 + 1 * j.val = j.val; omega

/-- What point `t` writes back to the hidden features is its block of `rect (conv adj s b)`. -/
theorem flushed2_4 (c : Dev nD) (t : Fin cfg2.N) :
    (dat2 V c).flushed 4 t = ((cfg2.win 4).blk t).view.read (Elt Ideal)
      (GraphConv.rect (GraphConv.conv (V c main_v4_0) (V c main_v4_1) (rowOf (V c main_v1)))) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x128) hz, View.ld_unit_zero (S := S1x128) hz]
  funext y
  obtain ⟨r, j, rfl⟩ : ∃ (r : Fin 400) (j : Fin 128), y = ix2 r j := ⟨y 0, y 1, eq_ix2 y⟩
  refine (Bodies.hidden_apply (iblk2 V c 0 t) (iblk2 V c 1 t) (iblk2 V c 2 t) r j).trans ?_
  show _ = GraphConv.rect (GraphConv.conv (V c main_v4_0) (V c main_v4_1) (rowOf (V c main_v1)))
    (((cfg2.win 4).blk t).view.emb (ix2 r j))
  rw [emb2_4, GraphConv.rect_apply, GraphConv.conv_apply, iblk2_2]
  simp only [iblk2_0, iblk2_1]
  rfl

/-- What point `t` writes back to the third support matrix is its block of `mm (rect (conv adj s b)) w2`. -/
theorem flushed2_5 (c : Dev nD) (t : Fin cfg2.N) :
    (dat2 V c).flushed 5 t = ((cfg2.win 5).blk t).view.read (Elt Ideal)
      (GraphConv.mm (GraphConv.rect (GraphConv.conv (V c main_v4_0) (V c main_v4_1) (rowOf (V c main_v1)))) (V c main_arg6)) := by
  show (cfg2.win 5).cut (grid2.coords t) ((dat2 V c).after 5 t) = _
  rw [after2_5]
  unfold out2_5
  rw [View.canon_unit_zero hz]
  simp only [View.ld_unit_zero (S := S400x10000) hz, View.ld_unit_zero (S := S10000x128) hz, View.ld_unit_zero (S := S1x128) hz, View.ld_unit_zero (S := S128x40) hz]
  funext y
  obtain ⟨r, j, rfl⟩ : ∃ (r : Fin 400) (j : Fin 40), y = ix2 r j := ⟨y 0, y 1, eq_ix2 y⟩
  refine (Bodies.hiddenSupport_apply (iblk2 V c 0 t) (iblk2 V c 1 t) (iblk2 V c 2 t) (iblk2 V c 3 t) r j).trans ?_
  show _ = GraphConv.mm (GraphConv.rect (GraphConv.conv (V c main_v4_0) (V c main_v4_1) (rowOf (V c main_v1)))) (V c main_arg6)
    (((cfg2.win 5).blk t).view.emb (ix2 r j))
  rw [emb2_5, GraphConv.mm_apply]
  simp only [iblk2_0, iblk2_1, iblk2_2, iblk2_3]
  rfl

/-- An index of the array is in point `t`'s block iff each coordinate is in the block's range on its axis. -/
theorem mem_blk2_4 (t : Fin cfg2.N) (i : S10000x128.Idx) :
    i ∈ ((cfg2.win 4).blk t).view.set ↔ ∀ a : Fin 2, win2_4.index t a * S400x128.size a ≤ (i a).val ∧ (i a).val < win2_4.index t a * S400x128.size a + S400x128.size a := by
  show i ∈ ((View.whole main_v5_0).slice (win2_4.rect t)).set ↔ _
  rw [View.set_slice_whole, Rect.mem_set_unit]
  exact Iff.rfl

/-- The blocks tile the rows: row `i` lies in the block of the point `i / 400`. -/
theorem tiles2_4 (i : S10000x128.Idx) :
    ∃ t : Fin cfg2.N, (cfg2.win 4).flush t = true ∧ i ∈ ((cfg2.win 4).blk t).view.set := by
  have hi0 : (i 0).val < 10000 := (i 0).isLt
  have hi1 : (i 1).val < 128 := (i 1).isLt
  let t : Fin cfg2.N := ⟨(i 0).val / 400, by rw [show cfg2.N = 25 from N_2]; omega⟩
  obtain ⟨e00, e01, e10, e11, e20, e21, e30, e31, e40, e41, e50, e51⟩ := idx2 t
  have ht : t.val = (i 0).val / 400 := rfl
  refine ⟨t, flush2_4 t, ?_⟩
  rw [mem_blk2_4]
  intro a
  match a with
  | ⟨0, _⟩ => show win2_4.index t (0 : Fin 2) * 400 ≤ (i 0).val ∧ (i 0).val < win2_4.index t (0 : Fin 2) * 400 + 400; omega
  | ⟨1, _⟩ => show win2_4.index t (1 : Fin 2) * 128 ≤ (i 1).val ∧ (i 1).val < win2_4.index t (1 : Fin 2) * 128 + 128; omega

/-- An index of the array is in point `t`'s block iff each coordinate is in the block's range on its axis. -/
theorem mem_blk2_5 (t : Fin cfg2.N) (i : S10000x40.Idx) :
    i ∈ ((cfg2.win 5).blk t).view.set ↔ ∀ a : Fin 2, win2_5.index t a * S400x40.size a ≤ (i a).val ∧ (i a).val < win2_5.index t a * S400x40.size a + S400x40.size a := by
  show i ∈ ((View.whole main_v5_1).slice (win2_5.rect t)).set ↔ _
  rw [View.set_slice_whole, Rect.mem_set_unit]
  exact Iff.rfl

/-- The blocks tile the rows: row `i` lies in the block of the point `i / 400`. -/
theorem tiles2_5 (i : S10000x40.Idx) :
    ∃ t : Fin cfg2.N, (cfg2.win 5).flush t = true ∧ i ∈ ((cfg2.win 5).blk t).view.set := by
  have hi0 : (i 0).val < 10000 := (i 0).isLt
  have hi1 : (i 1).val < 40 := (i 1).isLt
  let t : Fin cfg2.N := ⟨(i 0).val / 400, by rw [show cfg2.N = 25 from N_2]; omega⟩
  obtain ⟨e00, e01, e10, e11, e20, e21, e30, e31, e40, e41, e50, e51⟩ := idx2 t
  have ht : t.val = (i 0).val / 400 := rfl
  refine ⟨t, flush2_5 t, ?_⟩
  rw [mem_blk2_5]
  intro a
  match a with
  | ⟨0, _⟩ => show win2_5.index t (0 : Fin 2) * 400 ≤ (i 0).val ∧ (i 0).val < win2_5.index t (0 : Fin 2) * 400 + 400; omega
  | ⟨1, _⟩ => show win2_5.index t (1 : Fin 2) * 40 ≤ (i 1).val ∧ (i 1).val < win2_5.index t (1 : Fin 2) * 40 + 40; omega

/-- The hidden features after region 2. -/
theorem final2_4 (c : Dev nD) :
    (dat2 V c).arrAt 4 cfg2.N = GraphConv.rect (GraphConv.conv (V c main_v4_0) (V c main_v4_1) (rowOf (V c main_v1))) :=
  (dat2 V c).arrAt_eq_of_cover 4 _ (fun t _ => flushed2_4 V c t) tiles2_4

/-- The third support matrix after region 2. -/
theorem final2_5 (c : Dev nD) :
    (dat2 V c).arrAt 5 cfg2.N
      = GraphConv.mm (GraphConv.rect (GraphConv.conv (V c main_v4_0) (V c main_v4_1) (rowOf (V c main_v1)))) (V c main_arg6) :=
  (dat2 V c).arrAt_eq_of_cover 5 _ (fun t _ => flushed2_5 V c t) tiles2_5

end Cert.KernelIdeal.Blocks

end
-- ==== Proof.Region3.lean ====
/-
  Region 3 (the third layer) at any entry contents `V`: the logits array it leaves.

  The grid has 25 points; point `t` stages rows `400 t … 400 t + 399` of the adjacency copy, the whole support matrix
  and the whole one-row bias, and writes back rows `400 t … 400 t + 399` of the logits. Row `r` of the block the body
  stores is `(Σ q, adj (400 t + r, q) · s (q, j)) + b j`: row `400 t + r` of `conv adj s b`. The 25 blocks tile the
  10000 rows (row `i` lies in the block of point `i / 400`), so the array ends at `conv adj s b`.
-/
import proofs.«153892_g88923002896508_cont_sun_m_247_2_alg».proof.Proof.Gen.KernelIdeal.Frame
import proofs.«153892_g88923002896508_cont_sun_m_247_2_alg».proof.Proof.Bodies
import proofs.«153892_g88923002896508_cont_sun_m_247_2_alg».proof.Proof.Spec
import proofs.«153892_g88923002896508_cont_sun_m_247_2_alg».proof.Proof.BlocksCommon
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices at every grid point: the row-blocked windows move with the point, the others stay. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem lt25_3 (t : Fin cfg3.N) : t.val < 25 := lt_of_lt_of_eq t.isLt N_3

/-- Window 0's block at point `t` is rows `400 t … 400 t + 399` of the adjacency copy. -/
theorem iblk3_0 (c : Dev nD) (t : Fin cfg3.N) (r : Fin 400) (q : Fin 10000) :
    iblk3 V c 0 t (ix2 r q) = V c main_v4_0 (ix2 (⟨t.val * 400 + r.val, by have := lt25_3 t; have := r.isLt; omega⟩ : Fin 10000) q) := by
  obtain ⟨e00, e01, e10, e11, e20, e21, e30, e31⟩ := idx3 t
  show V c main_v4_0 (((cfg3.win 0).blk t).view.emb (ix2 r q)) = _
  congr 1
  funext a; apply Fin.ext
  match a with
  | ⟨0, _⟩ => show win3_0.index t (0 : Fin 2) * 400 + 1 * r.val = t.val * 400 + r.val; omega
  | ⟨1, _⟩ => show win3_0.index t (1 : Fin 2) * 10000 + 1 * q.val = q.val; omega

/-- Window 1's block is the whole support matrix. -/
theorem iblk3_1 (c : Dev nD) (t : Fin cfg3.N) (q : Fin 10000) (j : Fin 40) :
    iblk3 V c 1 t (ix2 q j) = V c main_v5_1 (ix2 q j) := by
  obtain ⟨e00, e01, e10, e11, e20, e21, e30, e31⟩ := idx3 t
  show V c main_v5_1 (((cfg3.win 1).blk t).view.emb (ix2 q j)) = _
  congr 1
  funext a; apply Fin.ext
  match a with
  | ⟨0, _⟩ => show win3_1.index t (0 : Fin 2) * 10000 + 1 * q.val = q.val; omega
  | ⟨1, _⟩ => show win3_1.index t (1 : Fin 2) * 40 + 1 * j.val = j.val; omega

/-- Window 2's block is the whole one-row bias. -/
theorem iblk3_2 (c : Dev nD) (t : Fin cfg3.N) (u : Fin 1) (j : Fin 40) :
    iblk3 V c 2 t (ix2 u j) = V c main_v2 (ix2 u j) := by
  obtain ⟨e00, e01, e10, e11, e20, e21, e30, e31⟩ := idx3 t
  show V c main_v2 (((cfg3.win 2).blk t).view.emb (ix2 u j)) = _
  congr 1
  funext a; apply Fin.ext
  match a with
  | ⟨0, _⟩ => show win3_2.index t (0 : Fin 2) * 1 + 1 * u.val = u.val; omega
  | ⟨1, _⟩ => show win3_2.index t (1 : Fin 2) * 40 + 1 * j.val = j.val; omega

/-- The output block at point `t` sits at rows `400 t … 400 t + 399`. -/
theorem emb3_3 (t : Fin cfg3.N) (r : Fin 400) (j : Fin 40) :
    ((cfg3.win 3).blk t).view.emb (ix2 r j) = ix2 (⟨t.val * 400 + r.val, by have := lt25_3 t; have := r.isLt; omega⟩ : Fin 10000) j := by
  obtain ⟨e00, e01, e10, e11, e20, e21, e30, e31⟩ := idx3 t
  funext a; apply Fin.ext
  match a with
  | ⟨0, _⟩ => show win3_3.index t (0 : Fin 2) * 400 + 1 * r.val = t.val * 400 + r.val; omega
  | ⟨1, _⟩ => show win3_3.index t (1 : Fin 2) * 40 + 1 * j.val = j.val; omega

theorem flushed3_3 (c : Dev nD) (t : Fin cfg3.N) :
    (dat3 V c).flushed 3 t = ((cfg3.win 3).blk t).view.read (Elt Ideal)
      (GraphConv.conv (V c main_v4_0) (V c main_v5_1) (rowOf (V c main_v2))) := by
  show (cfg3.win 3).cut (grid3.coords t) ((dat3 V c).after 3 t) = _
  rw [after3_3]
  unfold out3_3
  rw [View.canon_unit_zero hz]
  simp only [View.ld_unit_zero (S := S400x10000) hz, View.ld_unit_zero (S := S10000x40) hz, View.ld_unit_zero (S := S1x40) hz]
  funext y
  obtain ⟨r, j, rfl⟩ : ∃ (r : Fin 400) (j : Fin 40), y = ix2 r j := ⟨y 0, y 1, eq_ix2 y⟩
  refine (Bodies.logits_apply (iblk3 V c 0 t) (iblk3 V c 1 t) (iblk3 V c 2 t) r j).trans ?_
  show _ = GraphConv.conv (V c main_v4_0) (V c main_v5_1) (rowOf (V c main_v2)) (((cfg3.win 3).blk t).view.emb (ix2 r j))
  rw [emb3_3, GraphConv.conv_apply, iblk3_2]
  simp only [iblk3_0, iblk3_1]
  rfl

/-- An index of the array is in point `t`'s block iff each coordinate is in the block's range on its axis. -/
theorem mem_blk3_3 (t : Fin cfg3.N) (i : S10000x40.Idx) :
    i ∈ ((cfg3.win 3).blk t).view.set ↔ ∀ a : Fin 2, win3_3.index t a * S400x40.size a ≤ (i a).val ∧ (i a).val < win3_3.index t a * S400x40.size a + S400x40.size a := by
  show i ∈ ((View.whole main_v6).slice (win3_3.rect t)).set ↔ _
  rw [View.set_slice_whole, Rect.mem_set_unit]
  exact Iff.rfl

/-- Every row lies in the block of the point `row / 400`. -/
theorem tiles3_3 (i : S10000x40.Idx) :
    ∃ t : Fin cfg3.N, (cfg3.win 3).flush t = true ∧ i ∈ ((cfg3.win 3).blk t).view.set := by
  have hi0 : (i 0).val < 10000 := (i 0).isLt
  have hi1 : (i 1).val < 40 := (i 1).isLt
  let t : Fin cfg3.N := ⟨(i 0).val / 400, by rw [show cfg3.N = 25 from N_3]; omega⟩
  obtain ⟨e00, e01, e10, e11, e20, e21, e30, e31⟩ := idx3 t
  have ht : t.val = (i 0).val / 400 := rfl
  refine ⟨t, flush3_3 t, ?_⟩
  rw [mem_blk3_3]
  intro a
  match a with
  | ⟨0, _⟩ => show win3_3.index t (0 : Fin 2) * 400 ≤ (i 0).val ∧ (i 0).val < win3_3.index t (0 : Fin 2) * 400 + 400; omega
  | ⟨1, _⟩ => show win3_3.index t (1 : Fin 2) * 40 ≤ (i 1).val ∧ (i 1).val < win3_3.index t (1 : Fin 2) * 40 + 40; omega

/-- The logits array after region 3. -/
theorem final3_3 (c : Dev nD) :
    (dat3 V c).arrAt 3 cfg3.N = GraphConv.conv (V c main_v4_0) (V c main_v5_1) (rowOf (V c main_v2)) :=
  (dat3 V c).arrAt_eq_of_cover 3 _ (fun t _ => flushed3_3 V c t) tiles3_3

end Cert.KernelIdeal.Blocks
end
-- ==== Proof.KernelValue.lean ====
/-
  The idealized kernel's two results as functions of its arguments.

  Walking the run's boundaries back from the last one: the logits are region 3's output, `conv adj s3 b2` of the
  contents region 3 found; there the adjacency copy is what region 1 left — the adjacency matrix itself —, the third
  support matrix `s3` and the hidden features are region 2's outputs, functions of what region 2 found, whose second
  support matrix is region 1's output, a function of what region 1 found, whose first support matrix is region 0's
  output `x · w1`. A buffer no later step writes keeps its contents from boundary to boundary; the three one-row
  biases are the host's reshapes of the bias vectors, and a one-row reshape read as a vector is the vector. Composed,
  the results are the specification's `logits` and `hidden` of the arguments.
-/
import proofs.«153892_g88923002896508_cont_sun_m_247_2_alg».proof.Proof.KernelRun
import proofs.«153892_g88923002896508_cont_sun_m_247_2_alg».proof.Proof.Region0
import proofs.«153892_g88923002896508_cont_sun_m_247_2_alg».proof.Proof.Region1
import proofs.«153892_g88923002896508_cont_sun_m_247_2_alg».proof.Proof.Region2
import proofs.«153892_g88923002896508_cont_sun_m_247_2_alg».proof.Proof.Region3
import Idealize.ShloMosaic.Lib.StableHlo.Run

set_option maxRecDepth 16384

noncomputable section

namespace Cert.KernelIdeal.RunValue

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- A vector reshaped to one row, read back as a vector, is the vector. -/
theorem rowOf_cast {B : Nat} (b : (⟨1, ![B]⟩ : Shape).Idx → EReal) (h : (⟨1, ![B]⟩ : Shape).ShapeCasts ⟨2, ![1, B]⟩) :
    rowOf (shapeCast ⟨2, ![1, B]⟩ b h) = b := by
  funext j
  obtain ⟨k, rfl⟩ : ∃ k : Fin B, j = ix1 k := ⟨j 0, eq_ix1 j⟩
  refine shapeCast_apply b h (ix2 (0 : Fin 1) k) (ix1 k) ?_
  rw [Shape.rowMajor_val_two, Shape.rowMajor_val_one]
  show k.val = 0 * B + k.val
  omega

/-! ## After the host's three reshapes -/

theorem V1_arg0 (c : Dev nD) : V1 m ρ c main_arg0 = (m ((c : Thread nD τ).loc main_arg0)) := by
  dsimp only [V1, W1, hostOps0]; after_results <;> rfl
theorem V1_arg1 (c : Dev nD) : V1 m ρ c main_arg1 = (m ((c : Thread nD τ).loc main_arg1)) := by
  dsimp only [V1, W1, hostOps0]; after_results <;> rfl
theorem V1_arg2 (c : Dev nD) : V1 m ρ c main_arg2 = (m ((c : Thread nD τ).loc main_arg2)) := by
  dsimp only [V1, W1, hostOps0]; after_results <;> rfl
theorem V1_arg4 (c : Dev nD) : V1 m ρ c main_arg4 = (m ((c : Thread nD τ).loc main_arg4)) := by
  dsimp only [V1, W1, hostOps0]; after_results <;> rfl
theorem V1_arg6 (c : Dev nD) : V1 m ρ c main_arg6 = (m ((c : Thread nD τ).loc main_arg6)) := by
  dsimp only [V1, W1, hostOps0]; after_results <;> rfl
theorem V1_v0 (c : Dev nD) : (V1 m ρ c main_v0 : S1x128.Idx → EReal) = shapeCast S1x128 (m ((c : Thread nD τ).loc main_arg3)) shapeCasts_S128_S1x128 := by
  dsimp only [V1, W1, hostOps0]; after_results <;> rfl
theorem V1_v1 (c : Dev nD) : (V1 m ρ c main_v1 : S1x128.Idx → EReal) = shapeCast S1x128 (m ((c : Thread nD τ).loc main_arg5)) shapeCasts_S128_S1x128 := by
  dsimp only [V1, W1, hostOps0]; after_results <;> rfl
theorem V1_v2 (c : Dev nD) : (V1 m ρ c main_v2 : S1x40.Idx → EReal) = shapeCast S1x40 (m ((c : Thread nD τ).loc main_arg7)) shapeCasts_S40_S1x40 := by
  dsimp only [V1, W1, hostOps0]; after_results <;> rfl

/-! ## After region 0: the first support matrix -/

theorem V2_v3 (c : Dev nD) : V2 m ρ c main_v3 = GraphConv.mm (m ((c : Thread nD τ).loc main_arg0)) (m ((c : Thread nD τ).loc main_arg2)) :=
  (W2_arr m ρ c 2).trans ((final0_2 (V1 m ρ) c).trans (by rw [V1_arg0, V1_arg2]))
theorem V2_arg1 (c : Dev nD) : V2 m ρ c main_arg1 = (m ((c : Thread nD τ).loc main_arg1)) :=
  (W2_of_ne m ρ c main_arg1 (by decide)).trans (V1_arg1 m ρ c)
theorem V2_arg4 (c : Dev nD) : V2 m ρ c main_arg4 = (m ((c : Thread nD τ).loc main_arg4)) :=
  (W2_of_ne m ρ c main_arg4 (by decide)).trans (V1_arg4 m ρ c)
theorem V2_arg6 (c : Dev nD) : V2 m ρ c main_arg6 = (m ((c : Thread nD τ).loc main_arg6)) :=
  (W2_of_ne m ρ c main_arg6 (by decide)).trans (V1_arg6 m ρ c)
theorem V2_v0 (c : Dev nD) : (V2 m ρ c main_v0 : S1x128.Idx → EReal) = shapeCast S1x128 (m ((c : Thread nD τ).loc main_arg3)) shapeCasts_S128_S1x128 :=
  (W2_of_ne m ρ c main_v0 (by decide)).trans (V1_v0 m ρ c)
theorem V2_v1 (c : Dev nD) : (V2 m ρ c main_v1 : S1x128.Idx → EReal) = shapeCast S1x128 (m ((c : Thread nD τ).loc main_arg5)) shapeCasts_S128_S1x128 :=
  (W2_of_ne m ρ c main_v1 (by decide)).trans (V1_v1 m ρ c)
theorem V2_v2 (c : Dev nD) : (V2 m ρ c main_v2 : S1x40.Idx → EReal) = shapeCast S1x40 (m ((c : Thread nD τ).loc main_arg7)) shapeCasts_S40_S1x40 :=
  (W2_of_ne m ρ c main_v2 (by decide)).trans (V1_v2 m ρ c)

/-! ## After region 1: the adjacency copy and the second support matrix -/

theorem V3_v4_0 (c : Dev nD) : V3 m ρ c main_v4_0 = (m ((c : Thread nD τ).loc main_arg1)) :=
  (W3_arr m ρ c 4).trans ((final1_4 (V2 m ρ) c).trans (V2_arg1 m ρ c))
theorem V3_v4_1 (c : Dev nD) : V3 m ρ c main_v4_1
    = GraphConv.mm (GraphConv.rect (GraphConv.conv (m ((c : Thread nD τ).loc main_arg1)) (GraphConv.mm (m ((c : Thread nD τ).loc main_arg0)) (m ((c : Thread nD τ).loc main_arg2))) (m ((c : Thread nD τ).loc main_arg3)))) (m ((c : Thread nD τ).loc main_arg4)) :=
  (W3_arr m ρ c 5).trans ((final1_5 (V2 m ρ) c).trans (by rw [V2_arg1, V2_v3, V2_v0, V2_arg4, rowOf_cast]))
theorem V3_arg6 (c : Dev nD) : V3 m ρ c main_arg6 = (m ((c : Thread nD τ).loc main_arg6)) :=
  (W3_of_ne m ρ c main_arg6 (by decide)).trans (V2_arg6 m ρ c)
theorem V3_v1 (c : Dev nD) : (V3 m ρ c main_v1 : S1x128.Idx → EReal) = shapeCast S1x128 (m ((c : Thread nD τ).loc main_arg5)) shapeCasts_S128_S1x128 :=
  (W3_of_ne m ρ c main_v1 (by decide)).trans (V2_v1 m ρ c)
theorem V3_v2 (c : Dev nD) : (V3 m ρ c main_v2 : S1x40.Idx → EReal) = shapeCast S1x40 (m ((c : Thread nD τ).loc main_arg7)) shapeCasts_S40_S1x40 :=
  (W3_of_ne m ρ c main_v2 (by decide)).trans (V2_v2 m ρ c)

/-! ## After region 2: the hidden features and the third support matrix -/

theorem V4_v5_0 (c : Dev nD) : V4 m ρ c main_v5_0
    = GraphConv.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W4_arr m ρ c 4).trans ((final2_4 (V3 m ρ) c).trans (by rw [V3_v4_0, V3_v4_1, V3_v1, rowOf_cast]; rfl))
theorem V4_v5_1 (c : Dev nD) : V4 m ρ c main_v5_1
    = GraphConv.mm (GraphConv.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) :=
  (W4_arr m ρ c 5).trans ((final2_5 (V3 m ρ) c).trans (by rw [V3_v4_0, V3_v4_1, V3_v1, V3_arg6, rowOf_cast]; rfl))
theorem V4_v4_0 (c : Dev nD) : V4 m ρ c main_v4_0 = (m ((c : Thread nD τ).loc main_arg1)) :=
  (W4_arr m ρ c 0).trans (((dat2 (V3 m ρ) c).arrAt_in 0 rfl _).trans ((A_eq2 (V3 m ρ) c 0).trans (V3_v4_0 m ρ c)))
theorem V4_v2 (c : Dev nD) : (V4 m ρ c main_v2 : S1x40.Idx → EReal) = shapeCast S1x40 (m ((c : Thread nD τ).loc main_arg7)) shapeCasts_S40_S1x40 :=
  (W4_of_ne m ρ c main_v2 (by decide)).trans (V3_v2 m ρ c)

/-! ## After region 3: the two results -/

/-- The logits buffer at the end of the run. -/
theorem logits_value (c : Dev nD) : W5 m ρ c (Proc.devRef .tc main_v6)
    = GraphConv.logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W5_arr m ρ c 3).trans ((final3_3 (V4 m ρ) c).trans (by rw [V4_v4_0, V4_v5_1, V4_v2, rowOf_cast]; rfl))

/-- The hidden-features buffer at the end of the run: region 3 does not write it. -/
theorem hidden_value (c : Dev nD) : W5 m ρ c (Proc.devRef .tc main_v5_0)
    = GraphConv.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W5_of_ne m ρ c main_v5_0 (by decide)).trans (V4_v5_0 m ρ c)

/-- The idealized kernel's run: every weakly fair execution terminates, nothing faulting, with the logits and the hidden
    features at the specification's functions of the arguments, and the arguments as launched. -/
theorem run : θ_run defs (onTc (τ := τ) (main (F := Ideal))) ⟨m, fun _ => 0, ρ⟩ (fun r => ∀ c : Dev nD,
      r.2.mem ((c.tc : Thread nD τ).loc main_v6)
        = GraphConv.logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_v5_0)
        = GraphConv.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (logits_value m ρ c), (h c).2.1.trans (hidden_value m ρ c), (h c).2.2⟩)
    (run_named m ρ)

end Cert.KernelIdeal.RunValue

end
-- ==== Proof.LibDenseLayer.lean ====
/-
  A dense layer read at an entry, over the extended reals, generic in the sizes.

  * `rowBias_apply`: a length-`B` vector cast to one row `[1, B]` and broadcast down `A` rows reads, at `(r, j)`,
    the vector's entry `j`.
  * `denseLayer_apply`: the matrix unit's product of an `A × K` by a `K × B` matrix into a zero accumulator, plus such
    a row bias, reads at `(r, j)` the sum over `k` of `l (r, k) · w (k, j)`, plus `b j`.
  * `hostDenseLayer_apply`: the same for the host's product, the bias broadcast by the host's two broadcasts.
-/
import proofs.«153892_g88923002896508_cont_sun_m_247_2_alg».proof.Proof.LibHostRead

noncomputable section

namespace Cert.LibDense

open Idealize.ShloMosaic Idealize.ShloMosaic.ValueIdx

/-- A vector cast to a one-row matrix and broadcast down the rows: entry `(r, j)` is the vector's entry `j`. -/
theorem rowBias_apply {α : Type} {A B : Nat} (b : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (r : Fin A) (j : Fin B) :
    broadcastTo ⟨2, ![A, B]⟩ (shapeCast ⟨2, ![1, B]⟩ b h1) h2 (ix2 r j) = b (ix1 j) := by
  refine (broadcastTo_apply _ h2 (ix2 r j) (ix2 (0 : Fin 1) j) fun ax => ?_).trans ?_
  · match ax with
    | ⟨0, _⟩ => rfl
    | ⟨1, _⟩ =>
      show j.val = if B = 1 then 0 else j.val
      split
      · have := j.isLt; omega
      · rfl
  · refine shapeCast_apply b h1 _ _ ?_
    rw [Shape.rowMajor_val_two, Shape.rowMajor_val_one]
    show j.val = 0 * B + j.val
    omega

/-- The matrix unit's product into a zero accumulator plus a row bias, at `(r, j)`. -/
theorem denseLayer_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (w : (⟨2, ![K, B]⟩ : Shape).Idx → EReal) (b : (⟨1, ![B]⟩ : Shape).Idx → EReal)
    (h1 : (⟨1, ![B]⟩ : Shape).ShapeCasts ⟨2, ![1, B]⟩) (h2 : (⟨2, ![1, B]⟩ : Shape).Broadcasts ⟨2, ![A, B]⟩)
    (r : Fin A) (j : Fin B) :
    FloatOps.matmul (F := Ideal) (φ₁ := φ₁) (φ₂ := φ₂) (Cert.LibHR.plainDotDims A K B wf) none l w
        (constant (F := Ideal) ⟨2, ![A, B]⟩ .f32 0x00000000#32) (ix2 r j)
      + broadcastTo ⟨2, ![A, B]⟩ (shapeCast ⟨2, ![1, B]⟩ b h1) h2 (ix2 r j)
      = (∑ k : Fin K, l (ix2 r k) * w (ix2 k j)) + b (ix1 j) := by
  rw [Cert.LibHR.plainMatmul_zero_apply, rowBias_apply]

/-- The host's product plus a row bias (the vector broadcast to one row, then down the rows), at `(r, j)`. -/
theorem hostDenseLayer_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (w : (⟨2, ![K, B]⟩ : Shape).Idx → EReal) (b : (⟨1, ![B]⟩ : Shape).Idx → EReal)
    (h1 : (⟨1, ![B]⟩ : Shape).BroadcastsInDim ⟨2, ![1, B]⟩ ![1]) (h2 : (⟨2, ![1, B]⟩ : Shape).BroadcastsInDim ⟨2, ![A, B]⟩ ![0, 1])
    (r : Fin A) (j : Fin B) :
    Host.dotGeneral (F := Ideal) (φ₁ := φ₁) (φ₂ := φ₂) (Cert.LibHR.plainDotDims A K B wf) none l w (ix2 r j)
      + broadcastInDim ⟨2, ![A, B]⟩ ![0, 1] h2 (broadcastInDim ⟨2, ![1, B]⟩ ![1] h1 b) (ix2 r j)
      = (∑ k : Fin K, l (ix2 r k) * w (ix2 k j)) + b (ix1 j) := by
  rw [Cert.LibHR.plainDot_apply, Cert.LibHR.bcastRow_apply]

end Cert.LibDense

end
-- ==== Proof.RefSide.lean ====
/-
  The reference program is the three layers of the specification.

  The reference's run ends with its two results at the composed term of its host operations: three times a
  product `x · W`, the product with the adjacency matrix, the bias broadcast to one row and then down the rows and
  added, and — after the first two layers — the maximum with a zero constant broadcast to the whole shape. Read over
  the extended reals each of these is, entry by entry, the specification's `mm`, `conv` and `rect`: the host's
  matrix product at `(i, j)` is the sum over the contracted coordinate of the products of the entries, the
  broadcast bias at `(i, j)` is the bias's entry `j`, and the broadcast zero is the zero word at every index.
-/
import proofs.«153892_g88923002896508_cont_sun_m_247_2_alg».proof.Proof.Gen.ReferenceIdeal.Run
import proofs.«153892_g88923002896508_cont_sun_m_247_2_alg».proof.Proof.Spec
import proofs.«153892_g88923002896508_cont_sun_m_247_2_alg».proof.Proof.LibDenseLayer

noncomputable section

open scoped BigOperators

namespace Cert.ReferenceIdeal.RefValue

open Cert.ReferenceIdeal Cert.ReferenceIdeal.Gen Idealize.ShloMosaic Idealize.ShloMosaic.ValueIdx

/-- The host's plain matrix product is the specification's `mm`. -/
theorem hostMm (A K B : Nat) (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) :
    Host.dotGeneral (F := Ideal) (φ₁ := .f32) (φ₂ := .f32) (Cert.LibHR.plainDotDims A K B wf) none l r = GraphConv.mm l r := by
  funext i
  obtain ⟨a, b, rfl⟩ : ∃ (a : Fin A) (b : Fin B), i = ix2 a b := ⟨i 0, i 1, eq_ix2 i⟩
  exact Cert.LibHR.plainDot_apply (φ₁ := .f32) (φ₂ := .f32) A K B wf l r a b

/-- The adjacency product plus the bias, broadcast to one row and then down the rows, is the specification's `conv`. -/
theorem hostConv (N B : Nat) (wf : DotDims.WF ⟨2, ![N, N]⟩ ⟨2, ![N, B]⟩ ⟨2, ![N, B]⟩ [1] [0] [0] [1] [] [])
    (adj : (⟨2, ![N, N]⟩ : Shape).Idx → EReal) (s : (⟨2, ![N, B]⟩ : Shape).Idx → EReal) (b : (⟨1, ![B]⟩ : Shape).Idx → EReal)
    (h1 : (⟨1, ![B]⟩ : Shape).BroadcastsInDim ⟨2, ![1, B]⟩ ![1]) (h2 : (⟨2, ![1, B]⟩ : Shape).BroadcastsInDim ⟨2, ![N, B]⟩ ![0, 1]) :
    addf (F := Ideal) (φ := .f32) (Host.dotGeneral (F := Ideal) (φ₁ := .f32) (φ₂ := .f32) (Cert.LibHR.plainDotDims N N B wf) none adj s)
        (broadcastInDim ⟨2, ![N, B]⟩ ![0, 1] h2 (broadcastInDim ⟨2, ![1, B]⟩ ![1] h1 b))
      = GraphConv.conv adj s b := by
  funext i
  obtain ⟨a, j, rfl⟩ : ∃ (a : Fin N) (j : Fin B), i = ix2 a j := ⟨i 0, i 1, eq_ix2 i⟩
  exact Cert.LibDense.hostDenseLayer_apply (φ₁ := .f32) (φ₂ := .f32) N N B wf adj s b h1 h2 a j

/-- The maximum with the zero constant broadcast to the whole shape is the specification's `rect`. -/
theorem hostRect (s : Shape) (y : s.Idx → EReal) (h : (⟨0, ![]⟩ : Shape).BroadcastsInDim s ![]) :
    maximumf (F := Ideal) (φ := .f32) y (broadcastInDim s ![] h (constant (F := Ideal) ⟨0, ![]⟩ .f32 0x00000000#32)) = GraphConv.rect y := by
  funext i
  show max (y i) (broadcastInDim s ![] h (constant (F := Ideal) ⟨0, ![]⟩ .f32 0x00000000#32) i) = _
  rw [Cert.LibHR.bcastScalar_apply]
  rfl

/-- The reference's second result: the hidden features. -/
theorem hidden_eq (x : FVec Ideal S10000x128 .f32) (adj : FVec Ideal S10000x10000 .f32) (w1 : FVec Ideal S128x128 .f32)
    (b1 : FVec Ideal S128 .f32) (wm : FVec Ideal S128x128 .f32) (bm : FVec Ideal S128 .f32) :
    maximumf (addf (Host.dotGeneral dot_S10000x10000_S10000x128_S10000x128_1_0_0_1_n_n none adj (Host.dotGeneral dot_S10000x128_S128x128_S10000x128_1_0_0_1_n_n none (maximumf (addf (Host.dotGeneral dot_S10000x10000_S10000x128_S10000x128_1_0_0_1_n_n none adj (Host.dotGeneral dot_S10000x128_S128x128_S10000x128_1_0_0_1_n_n none x w1)) (broadcastInDim S10000x128 ![0, 1] bcast_S1x128_S10000x128_0_1 (broadcastInDim S1x128 ![1] bcast_S128_S1x128_1 b1))) (broadcastInDim S10000x128 ![] bcast_S_S10000x128 (constant S_ .f32 0x00000000#32))) wm)) (broadcastInDim S10000x128 ![0, 1] bcast_S1x128_S10000x128_0_1 (broadcastInDim S1x128 ![1] bcast_S128_S1x128_1 bm))) (broadcastInDim S10000x128 ![] bcast_S_S10000x128 (constant S_ .f32 0x00000000#32))
      = GraphConv.hidden x adj w1 b1 wm bm := by
  unfold GraphConv.hidden
  refine (hostRect _ _ _).trans (congrArg GraphConv.rect ?_)
  refine (hostConv 10000 128 _ adj _ bm _ _).trans (congrArg (fun s => GraphConv.conv adj s bm) ?_)
  refine (hostMm 10000 128 128 _ _ wm).trans (congrArg (fun y => GraphConv.mm y wm) ?_)
  refine (hostRect _ _ _).trans (congrArg GraphConv.rect ?_)
  refine (hostConv 10000 128 _ adj _ b1 _ _).trans (congrArg (fun s => GraphConv.conv adj s b1) ?_)
  exact hostMm 10000 128 128 _ x w1

/-- The reference's first result: the logits. -/
theorem logits_eq (x : FVec Ideal S10000x128 .f32) (adj : FVec Ideal S10000x10000 .f32) (w1 : FVec Ideal S128x128 .f32)
    (b1 : FVec Ideal S128 .f32) (wm : FVec Ideal S128x128 .f32) (bm : FVec Ideal S128 .f32)
    (w2 : FVec Ideal S128x40 .f32) (b2 : FVec Ideal S40 .f32) :
    addf (Host.dotGeneral dot_S10000x10000_S10000x40_S10000x40_1_0_0_1_n_n none adj (Host.dotGeneral dot_S10000x128_S128x40_S10000x40_1_0_0_1_n_n none (maximumf (addf (Host.dotGeneral dot_S10000x10000_S10000x128_S10000x128_1_0_0_1_n_n none adj (Host.dotGeneral dot_S10000x128_S128x128_S10000x128_1_0_0_1_n_n none (maximumf (addf (Host.dotGeneral dot_S10000x10000_S10000x128_S10000x128_1_0_0_1_n_n none adj (Host.dotGeneral dot_S10000x128_S128x128_S10000x128_1_0_0_1_n_n none x w1)) (broadcastInDim S10000x128 ![0, 1] bcast_S1x128_S10000x128_0_1 (broadcastInDim S1x128 ![1] bcast_S128_S1x128_1 b1))) (broadcastInDim S10000x128 ![] bcast_S_S10000x128 (constant S_ .f32 0x00000000#32))) wm)) (broadcastInDim S10000x128 ![0, 1] bcast_S1x128_S10000x128_0_1 (broadcastInDim S1x128 ![1] bcast_S128_S1x128_1 bm))) (broadcastInDim S10000x128 ![] bcast_S_S10000x128 (constant S_ .f32 0x00000000#32))) w2)) (broadcastInDim S10000x40 ![0, 1] bcast_S1x40_S10000x40_0_1 (broadcastInDim S1x40 ![1] bcast_S40_S1x40_1 b2))
      = GraphConv.logits x adj w1 b1 wm bm w2 b2 := by
  unfold GraphConv.logits
  refine (hostConv 10000 40 _ adj _ b2 _ _).trans (congrArg (fun s => GraphConv.conv adj s b2) ?_)
  refine (hostMm 10000 128 40 _ _ w2).trans (congrArg (fun y => GraphConv.mm y w2) ?_)
  exact hidden_eq x adj w1 b1 wm bm

end Cert.ReferenceIdeal.RefValue

end
-- ==== Proof.lean ====
/-
  The certificate of a three-layer graph convolution over a dense 10000 × 10000 adjacency matrix.

  Both programs compute, over the extended reals,
      h1 = max (adj · (x · W1) + b1) 0,   h2 = max (adj · (h1 · Wm) + bm) 0,   logits = adj · (h2 · W2) + b2,
  and return `(logits, h2)`. The reference does so with whole-array host operations. The kernel does so in four
  regions: one whole-array product `x · W1`, then one region per layer over 25 blocks of 400 adjacency rows, each
  fusing the next layer's small product into the block it has just produced (the first layer's region also copies
  the adjacency matrix, which the later regions read). A row of a product depends on that row of the left operand
  only, so the blocks of rows compute exactly the rows of the whole-array functions; the sums, their order and their
  grouping are the same in both programs, changes of float format are the identity on the extended reals, and no
  algebraic law — hence no finiteness of the inputs — is needed.

  The three frames are the programs' runs with the results dropped; the idealization rewrote nothing, so
  `preserves` is trivial; `algebraic` sets the kernel's run, the regions' arrays composed, beside the reference's at the
  specification's two functions.
-/
import proofs.«153892_g88923002896508_cont_sun_m_247_2_alg».proof.Defs
import proofs.«153892_g88923002896508_cont_sun_m_247_2_alg».proof.Proof.Gen.Kernel
import proofs.«153892_g88923002896508_cont_sun_m_247_2_alg».proof.Proof.Gen.Kernel.Skeleton
import proofs.«153892_g88923002896508_cont_sun_m_247_2_alg».proof.Proof.Gen.Kernel.Launch
import proofs.«153892_g88923002896508_cont_sun_m_247_2_alg».proof.Proof.Gen.Kernel.Points
import proofs.«153892_g88923002896508_cont_sun_m_247_2_alg».proof.Proof.Gen.Kernel.Frame
import proofs.«153892_g88923002896508_cont_sun_m_247_2_alg».proof.Proof.Gen.KernelIdeal
import proofs.«153892_g88923002896508_cont_sun_m_247_2_alg».proof.Proof.Gen.KernelIdeal.Skeleton
import proofs.«153892_g88923002896508_cont_sun_m_247_2_alg».proof.Proof.Gen.KernelIdeal.Launch
import proofs.«153892_g88923002896508_cont_sun_m_247_2_alg».proof.Proof.Gen.KernelIdeal.Points
import proofs.«153892_g88923002896508_cont_sun_m_247_2_alg».proof.Proof.Gen.KernelIdeal.Frame
import proofs.«153892_g88923002896508_cont_sun_m_247_2_alg».proof.Proof.Gen.ReferenceIdeal
import proofs.«153892_g88923002896508_cont_sun_m_247_2_alg».proof.Proof.Gen.ReferenceIdeal.Run
import proofs.«153892_g88923002896508_cont_sun_m_247_2_alg».proof.Proof.Gen.Pre_finite_inputs
import proofs.«153892_g88923002896508_cont_sun_m_247_2_alg».proof.Proof.KernelValue
import proofs.«153892_g88923002896508_cont_sun_m_247_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments, both runs end with the logits at the specification's `logits` and the
    hidden features at its `hidden` of the (shared) arguments. -/
theorem algebraic : Cert.algebraic_KernelIdeal_ReferenceIdeal := by
  intro m ρ m' ρ' _ hagree
  refine ⟨fun c => GraphConv.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => GraphConv.hidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7⟩ := hagree c
    rw [a0, a1, a2, a3, a4, a5, a6, a7]
    exact Cert.ReferenceIdeal.RefValue.logits_eq _ _ _ _ _ _ _ _
  · obtain ⟨a0, a1, a2, a3, a4, a5, a6, a7⟩ := hagree c
    rw [a0, a1, a2, a3, a4, a5]
    exact Cert.ReferenceIdeal.RefValue.hidden_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
